-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 768]⟩ ⟨2, ![1, 1536]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S3072x1536 : Shape := ⟨2, ![3072, 1536]⟩
abbrev S_ : Shape := ⟨0, ![]⟩

class Facts : Prop where
  bcast_S_S3072x1536 : S_.BroadcastsInDim S3072x1536 (![] : Fin 0 → Fin S3072x1536.rank)
  reducesTo_S3072x1536_S_d0_1 : S3072x1536.ReducesTo [0, 1] S_
  h_S_ : 0 < S_.numel

variable [Facts]

def fn {F : FTy → Type} [FloatOps F] (main_arg0 : FVec F S3072x1536 .f32) : IVec S_ 1 :=
  let main_v0 : FVec F S3072x1536 .f32 := Host.absf main_arg0
  let main_cst : FVec F S_ .f32 := constant S_ .f32 0x7F800000#32
  let main_v1 : FVec F S3072x1536 .f32 := broadcastInDim S3072x1536 ![] bcast_S_S3072x1536 main_cst
  let main_v2 : IVec S3072x1536 1 := cmpf .olt main_v0 main_v1
  let main_c : IVec S_ 1 := constantI S_ 1 1#1
  let main_v3 : IVec S_ 1 := (fun x v => Host.reduce IntOp.andi x v reducesTo_S3072x1536_S_d0_1 h_S_) main_v2 main_c
  main_v3
-- ==== Kernel.lean ====
abbrev S1536x768 : Shape := ⟨2, ![1536, 768]⟩
abbrev S1x768 : Shape := ⟨2, ![1, 768]⟩
abbrev S_ : Shape := ⟨0, ![]⟩
abbrev S768 : Shape := ⟨1, ![768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v17 : BitVec 32 := Scalar.muli v6 c2_i32_10
  let v18 : BitVec 32 := Scalar.addi c0_i32_11 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v19 : BitVec 32 := Scalar.muli v5 c1_i32_12
  let v20 : BitVec 32 := Scalar.addi v18 v19
  v20.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3072x1536 : Shape := ⟨2, ![3072, 1536]⟩
abbrev S_ : Shape := ⟨0, ![]⟩
abbrev S1536 : Shape := ⟨1, ![1536]⟩
abbrev S1x1536 : Shape := ⟨2, ![1, 1536]⟩

abbrev nBuf : Space → Nat
  | .hbm => 4
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S1536, .f32⟩
  | .hbm, ⟨3, _⟩ => ⟨S1x1536, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S3072x1536_S1536_d0 : S3072x1536.ReducesTo [0] S1536
  h_S_ : 0 < S_.numel
  bcast_S1536_S1x1536_1 : S1536.BroadcastsInDim S1x1536 (![1] : Fin 1 → Fin S1x1536.rank)

variable [Facts₀]

class Facts : Prop extends Facts₀ where

variable [Facts]
-- ==== Proof.Exchange.lean ====
/-
  The exchange protocol of the distributed column maximum, on the 2×2 mesh.

  Device c holds a [1536, 768] block of x. It signals its partner along mesh axis x (the device with the other row
  half of the same columns), stores the column maximum of its own block in its output block, waits for the partner's
  signal, copies its output block into the partner's landing buffer, waits until its own block has been read and the
  partner's has landed, and stores the maximum of the two.

  Three cells per device, one round each, one duty each:
    the barrier cell   — one unit, paid by the partner's signal; it hands the waiter the PARTNER's landing buffer
                         (at any contents) and the fact that the partner's receive cell is at round 0: what the
                         copy into that buffer needs;
    the send cell      — the block's credit, paid by the device's own copy once its output block has been read;
                         it hands the output block back, holding the device's own column maximum;
    the receive cell   — the block's credit, paid by the partner's copy once it has landed; it hands the landing
                         buffer over, holding the partner's column maximum.
  A device waits on its barrier cell while it still owes the partner's receive cell its copy; the levels put the
  receive cells above the barrier cells, and everything else below both.
-/
import proofs.«900375_g7700000000000376_dist_max_ax0_xy_m1536_n768_v7x_xy2x2_f32_1_alg».proof.Proof.Gen.KernelIdeal
import proofs.«900375_g7700000000000376_dist_max_ax0_xy_m1536_n768_v7x_xy2x2_f32_1_alg».proof.Proof.Gen.KernelIdeal.Skeleton
import proofs.«900375_g7700000000000376_dist_max_ax0_xy_m1536_n768_v7x_xy2x2_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the staging pipeline's, and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner: the other device of the same mesh column (0 ↔ 2, 1 ↔ 3) -/

def peer (c : Dev nD) : Dev nD := ⟨(c.val + 2) % 4, Nat.mod_lt _ (by decide)⟩

@[sl_rounds] theorem peer_peer (c : Dev nD) : peer (peer c) = c := by revert c; decide
theorem peer_ne (c : Dev nD) : peer c ≠ c := by revert c; decide

/-- Both device chains of the body — the signal's and the copy's — name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The buffers and the cells -/

abbrev xM : Memref sig .tc .vmem S1536x768 .f32 := Memref.whole cc0_stg0_0
abbrev oM : Memref sig .tc .vmem S1x768 .f32 := Memref.whole cc0_stg1_0
abbrev rM : Memref sig .tc .vmem S1x768 .f32 := Memref.whole cc0_scratch0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one [1, 768] block. -/
abbrev N : ℕ := (rM : Memref sig .tc .vmem S1x768 .f32).view.dmaCredit
theorem N_pos : 0 < N := View.dmaCredit_pos _ (by decide)

/-! ## What the buffers hold -/

/-- Device c's block of x, as its staging buffer holds it. -/
def xblk (c : Dev nD) : (cc0_stg0_0 : Ref sig .tc).ty.Contents (Elt F) :=
  (win0_0.blk (0 : Fin 1)).view.read (Elt F) (m ((c : Thread nD τ).loc main_arg0))

/-- The column maximum of device c's own block: what its output block holds between the two stores. -/
def colmax (c : Dev nD) : (cc0_stg1_0 : Ref sig .tc).ty.Contents (Elt F) := k0_pay2 (xblk m c)

/-- What lands in device c's landing buffer: the partner's column maximum. -/
def arrived (c : Dev nD) : Buf (Elt F) ((rM : Memref sig .tc .vmem S1x768 .f32).view.loc (c : Thread nD τ)) := colmax m (peer c)

/-- The kernel's result on device c: the maximum of its own column maximum and the partner's. -/
def result (c : Dev nD) : (cc0_stg1_0 : Ref sig .tc).ty.Contents (Elt F) := k0_pay1 (k0_pay3 (colmax m c)) (colmax m (peer c))

def scrPts (c : Dev nD) (f : Buf (Elt F) ((rM : Memref sig .tc .vmem S1x768 .f32).view.loc (c : Thread nD τ))) : sProp 𝕄 :=
  (rM : Memref sig .tc .vmem S1x768 .f32).view.loc (c : Thread nD τ) ↦[(rM : Memref sig .tc .vmem S1x768 .f32).view.set]{fullShare} f
def outPts (c : Dev nD) : sProp 𝕄 :=
  (oM : Memref sig .tc .vmem S1x768 .f32).view.loc (c : Thread nD τ) ↦[(oM : Memref sig .tc .vmem S1x768 .f32).view.set]{fullShare} colmax m c

omit [FloatOps F] in
instance scrPts_storable (c : Dev nD) (f) : BI.Storable (upEmb : UEmb _ 𝕄) (scrPts (F := F) c f) := by unfold scrPts; infer_instance
instance outPts_storable (c : Dev nD) : BI.Storable (upEmb : UEmb _ 𝕄) (outPts (F := F) m c) := by unfold outPts; infer_instance

omit [FloatOps F] in
theorem scr_set : (rM : Memref sig .tc .vmem S1x768 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
theorem outPts_eq (c : Dev nD) : outPts m c = (((c : Thread nD τ).loc cc0_stg1_0) ↦{fullShare} colmax m c : sProp 𝕄) := by
  unfold outPts; rw [View.set_whole]

omit [FloatOps F] in
/-- A whole output block copied over a whole landing buffer leaves exactly the block. -/
theorem landing_eq (c : Dev nD) (fd : Buf (Elt F) ((rM : Memref sig .tc .vmem S1x768 .f32).view.loc (c : Thread nD τ))) (fs : (cc0_stg1_0 : Ref sig .tc).ty.Contents (Elt F)) :
    (rM : Memref sig .tc .vmem S1x768 .f32).view.write (Elt F) fd ((oM : Memref sig .tc .vmem S1x768 .f32).view.read (Elt F) fs) Finset.univ = fs := by
  show (View.whole cc0_scratch0).write (Elt F) fd ((View.whole cc0_stg1_0).read (Elt F) fs) Finset.univ = fs
  rw [View.read_whole]
  exact View.write_whole_univ _ _ _

/-! ## The schedule -/

/-- The partner's signal hands c the partner's landing buffer and that the partner's receive cell is at round 0. -/
def barPay (c : Dev nD) : sProp 𝕄 := iprop((∃ f, scrPts (peer c) f) ∗ reached ER (recvCell (peer c)) 0)
def recvPay (c : Dev nD) : sProp 𝕄 := scrPts c (arrived m c)
def sendPay (c : Dev nD) : sProp 𝕄 := outPts m c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round: each barrier cell one duty of one unit; each send or receive cell one duty of the block's credit. -/
def plan : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance plan_payload_storable (g : GSem nD τ sig) (r : ℕ) (d : Unit) :
    BI.Storable (upEmb : UEmb _ 𝕄) ((plan (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

@[sl_rounds] theorem duties_bar : (plan (F := F) m).duties (barCell c) 0 = {()} := by
  dsimp only [plan]; exact if_pos ⟨rfl, .inl ⟨rfl, rfl⟩⟩
@[sl_rounds] theorem duties_send : (plan (F := F) m).duties (sendCell c) 0 = {()} := by
  dsimp only [plan]; exact if_pos ⟨rfl, .inr ⟨rfl, .inl rfl⟩⟩
@[sl_rounds] theorem duties_recv : (plan (F := F) m).duties (recvCell c) 0 = {()} := by
  dsimp only [plan]; exact if_pos ⟨rfl, .inr ⟨rfl, .inr rfl⟩⟩
theorem duties_later (g : GSem nD τ sig) : ∀ r, 1 ≤ r → (plan (F := F) m).duties g r = ∅ :=
  fun r hr => by dsimp only [plan]; rw [if_neg fun h => by omega]

@[sl_rounds] theorem amount_bar (d : Unit) : (plan (F := F) m).amount (barCell c) 0 d = 1 := by dsimp only [plan]; exact if_pos rfl
@[sl_rounds] theorem amount_send (d : Unit) : (plan (F := F) m).amount (sendCell c) 0 d = N := by dsimp only [plan]; exact if_neg send_ne_bar
@[sl_rounds] theorem amount_recv (d : Unit) : (plan (F := F) m).amount (recvCell c) 0 d = N := by dsimp only [plan]; exact if_neg recv_ne_bar

@[sl_rounds] theorem expect_bar : (plan (F := F) m).expect (barCell c) 0 = 1 := by
  unfold Schedule.expect Schedule.amountOf; rw [duties_bar, Finset.sum_singleton, amount_bar]
@[sl_rounds] theorem expect_send : (plan (F := F) m).expect (sendCell c) 0 = N := by
  unfold Schedule.expect Schedule.amountOf; rw [duties_send, Finset.sum_singleton, amount_send]
@[sl_rounds] theorem expect_recv : (plan (F := F) m).expect (recvCell c) 0 = N := by
  unfold Schedule.expect Schedule.amountOf; rw [duties_recv, Finset.sum_singleton, amount_recv]

theorem payload_bar (d : Unit) : (plan (F := F) m).payload (barCell c) 0 d = barPay c := by dsimp only [plan]; rw [if_pos rfl]
theorem payload_send (d : Unit) : (plan (F := F) m).payload (sendCell c) 0 d = sendPay m c := by
  dsimp only [plan]; rw [if_neg send_ne_bar, if_neg send_ne_recv, if_pos rfl]
theorem payload_recv (d : Unit) : (plan (F := F) m).payload (recvCell c) 0 d = recvPay m c := by
  dsimp only [plan]; rw [if_neg recv_ne_bar, if_pos rfl]

/-- The payloads spelt out, as the body's steps meet them. -/
@[sl_rounds] theorem payload_bar' (d : Unit) : (plan (F := F) m).payload (barCell c) 0 d
    = iprop((∃ f, (rM : Memref sig .tc .vmem S1x768 .f32).view.loc (peer c : Thread nD τ) ↦[(rM : Memref sig .tc .vmem S1x768 .f32).view.set]{fullShare} f) ∗ reached ER (recvCell (peer c)) 0) := by
  rw [payload_bar]; rfl
@[sl_rounds] theorem payload_send' (d : Unit) : (plan (F := F) m).payload (sendCell c) 0 d
    = ((oM : Memref sig .tc .vmem S1x768 .f32).view.loc (c : Thread nD τ) ↦[(oM : Memref sig .tc .vmem S1x768 .f32).view.set]{fullShare} colmax m c : sProp 𝕄) := by
  rw [payload_send]; rfl
@[sl_rounds] theorem payload_recv' (d : Unit) : (plan (F := F) m).payload (recvCell c) 0 d
    = ((rM : Memref sig .tc .vmem S1x768 .f32).view.loc (c : Thread nD τ) ↦[(rM : Memref sig .tc .vmem S1x768 .f32).view.set]{fullShare} colmax m (peer c) : sProp 𝕄) := by
  rw [payload_recv]; rfl

theorem rest_bar : bigSep ((plan (F := F) m).duties (barCell c) 0 \ ∅) (fun d => (plan (F := F) m).payload (barCell c) 0 d) = barPay c := by
  rw [Finset.sdiff_empty, duties_bar, bigSep_singleton, payload_bar]
theorem rest_send : bigSep ((plan (F := F) m).duties (sendCell c) 0 \ ∅) (fun d => (plan (F := F) m).payload (sendCell c) 0 d) = sendPay m c := by
  rw [Finset.sdiff_empty, duties_send, bigSep_singleton, payload_send]
theorem rest_recv : bigSep ((plan (F := F) m).duties (recvCell c) 0 \ ∅) (fun d => (plan (F := F) m).payload (recvCell c) 0 d) = recvPay m c := by
  rw [Finset.sdiff_empty, duties_recv, bigSep_singleton, payload_recv]

end Tables

/-! ## What each device owes at launch; the levels -/

/-- Device c owes the partner's receive cell the block's credit (its copy) and the partner's barrier cell one unit
    (its signal). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (the staging cells, the send cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell (level 0) is allowed whatever the device still owes: all of it lies above. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the partner's receive cell only: above its own barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## What a device starts its body from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device c's body opens, at the names K the launch allocated them: its own three cells', and the
    partner's barrier and receive cells' (its signal, its copy). -/
def invs (K : Dev nD × Fin 3 → ℕ) (c : Dev nD) : sProp 𝕄 :=
  iprop(cellInv ER (plan m) (K (c, 0)) (barCell c) ∗ cellInv ER (plan m) (K (c, 1)) (sendCell c) ∗ cellInv ER (plan m) (K (c, 2)) (recvCell c)
    ∗ cellInv ER (plan m) (K (peer c, 0)) (barCell (peer c)) ∗ cellInv ER (plan m) (K (peer c, 2)) (recvCell (peer c)))

instance invs_persistent (K : Dev nD × Fin 3 → ℕ) (c : Dev nD) : BI.Persistent (invs m K c) := by unfold invs; infer_instance

/-- The exchange's ghost state on device c: the invariants; its positions at round 0 of its three cells; round 0 reached
    of the two cells it pays and of its own send and receive cells; the three duty tokens it pays with — the partner's
    barrier duty, the partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- That at some names, the two credit tokens for what the partner owes c's cells, and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the one point: the landing buffer holding the partner's column maximum, the two own cells closed at zero. -/
def Φ₁ (c : Dev nD) : sProp 𝕄 := iprop(scrPts c (arrived m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Exchange

end
-- ==== Proof.Body.lean ====
/-
  One device's body of the distributed column maximum, stepped once at a symbolic device c.

  From the exchange's ghost state on c (Exchange.lean) the body is run effect by effect: the signal to the partner
  pays the partner's barrier duty with c's own landing buffer; the first store leaves c's column maximum in the
  output block; the barrier wait, taken while c still owes its copy, brings the partner's landing buffer; the copy
  pays c's send duty with the output block and the partner's receive duty with that block landed; the two waits
  bring the output block back and c's landing buffer holding the partner's column maximum; the last store leaves
  the maximum of the two. Afterwards c's own send and receive cells, which have no later round, are closed.
-/
import proofs.«900375_g7700000000000376_dist_max_ax0_xy_m1536_n768_v7x_xy2x2_f32_1_alg».proof.Proof.Exchange

noncomputable section

namespace Cert.KernelIdeal.Exchange

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What device c's body starts from: the exchange's ghost state and credit, its landing buffer at any contents, what
    it owes, and the two staging buffers as the pipeline hands them over. -/
def bodyPre (c : Dev nD) : sProp 𝕄 :=
  iprop((ghost m K c ∗ cred (tallyAt (barCell c) () 1) ∗ cred (tallyAt (recvCell c) () N) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What the stepped body leaves: the landing buffer holding the partner's column maximum, the two own cells at round 1
    (with their invariants, to close them), nothing owed, the x block unchanged and the output block at the result. -/
def bodyMid (c : Dev nD) : sProp 𝕄 :=
  iprop(cellInv ER (plan m) (K (c, 1)) (sendCell c) ∗ cellInv ER (plan m) (K (c, 2)) (recvCell c)
    ∗ scrPts c (arrived m c) ∗ atPos ER (sendCell c) 1 ∅ 0 ∗ atPos ER (recvCell c) 1 ∅ 0
    ∗ (dats m 0 c).owesAt () t₀.succ ∗ stg c cc0_stg0_0 (xblk m c) ∗ stg c cc0_stg1_0 (result m c))

def bodyPost (c : Dev nD) : sProp 𝕄 :=
  iprop(Φ₁ m c ∗ (dats m 0 c).owesAt () t₀.succ ∗ stg c cc0_stg0_0 (xblk m c) ∗ stg c cc0_stg1_0 (result m c))

/-- The barrier duty device c pays, on its partner's cell: it hands over c's OWN landing buffer and that c's own receive
    cell is at round 0. -/
theorem payload_bar_peer (c : Dev nD) (d : Unit) : (plan (F := F) m).payload (barCell (peer c)) 0 d
    = iprop((∃ f, (rM : Memref sig .tc .vmem S1x768 .f32).view.loc (c : Thread nD τ) ↦[(rM : Memref sig .tc .vmem S1x768 .f32).view.set]{fullShare} f) ∗ reached ER (recvCell c) 0) := by
  rw [payload_bar]
  have h : ∀ e : Dev nD, e = c → (iprop((∃ f, scrPts e f) ∗ reached ER (recvCell e) 0) : sProp 𝕄)
      = iprop((∃ f, (rM : Memref sig .tc .vmem S1x768 .f32).view.loc (c : Thread nD τ) ↦[(rM : Memref sig .tc .vmem S1x768 .f32).view.set]{fullShare} f) ∗ reached ER (recvCell c) 0) :=
    fun e he => by subst he; rfl
  exact h _ (peer_peer c)

attribute [local sl_rounds high] payload_bar_peer

omit [FloatOps F] in
/-- The two staging buffers held whole, stated through their memrefs' views. -/
theorem xin_view_eq (c : Dev nD) (f : Buf (Elt F) ((c : Thread nD τ).loc cc0_stg0_0)) :
    ((xM : Memref sig .tc .vmem S1536x768 .f32).view.loc (c : Thread nD τ) ↦[(xM : Memref sig .tc .vmem S1536x768 .f32).view.set]{fullShare} f : sProp 𝕄)
      = (((c : Thread nD τ).loc cc0_stg0_0) ↦{fullShare} f : sProp 𝕄) := by rw [View.set_whole]
omit [FloatOps F] in
theorem out_view_eq (c : Dev nD) (f : Buf (Elt F) ((c : Thread nD τ).loc cc0_stg1_0)) :
    ((oM : Memref sig .tc .vmem S1x768 .f32).view.loc (c : Thread nD τ) ↦[(oM : Memref sig .tc .vmem S1x768 .f32).view.set]{fullShare} f : sProp 𝕄)
      = (((c : Thread nD τ).loc cc0_stg1_0) ↦{fullShare} f : sProp 𝕄) := by rw [View.set_whole]

abbrev rX : Rect S1536x768 := Rect.unit (s := S1536x768) ![0, 0] S1536x768.size inb_S1536x768_S1536x768_0_0
abbrev rO : Rect S1x768 := Rect.unit (s := S1x768) ![0, 0] S1x768.size inb_S1x768_S1x768_0_0

omit [FloatOps F] in
theorem hz : (![0, 0] : Fin 2 → Nat) = fun _ => 0 := funext fun a => by fin_cases a <;> rfl

omit [FloatOps F] in
/-- A whole-block load reads the block; a whole-block store leaves exactly what was stored. -/
theorem read_x (f : (cc0_stg0_0 : Ref sig .tc).ty.Contents (Elt F)) :
    (xM : Memref sig .tc .vmem S1536x768 .f32).view.readAt (Elt F) rX.toLoadRect f = f :=
  Memref.readAt_unit_zero (Elt F) cc0_stg0_0 hz _ f
omit [FloatOps F] in
theorem read_o (f : (cc0_stg1_0 : Ref sig .tc).ty.Contents (Elt F)) :
    (oM : Memref sig .tc .vmem S1x768 .f32).view.readAt (Elt F) rO.toLoadRect f = f :=
  Memref.readAt_unit_zero (Elt F) cc0_stg1_0 hz _ f
omit [FloatOps F] in
theorem read_r (f : (cc0_scratch0 : Ref sig .tc).ty.Contents (Elt F)) :
    (rM : Memref sig .tc .vmem S1x768 .f32).view.readAt (Elt F) rO.toLoadRect f = f :=
  Memref.readAt_unit_zero (Elt F) cc0_scratch0 hz _ f
omit [FloatOps F] in
theorem write_o (f w : (cc0_stg1_0 : Ref sig .tc).ty.Contents (Elt F)) :
    (oM : Memref sig .tc .vmem S1x768 .f32).view.writes (Elt F) f [⟨rO, w⟩] = w := by
  show ((oM : Memref sig .tc .vmem S1x768 .f32).access rO : View sig .tc _ _ _).write (Elt F) f w Finset.univ = w
  exact Memref.write_access_unit_zero_univ (Elt F) cc0_stg1_0 hz _ f w

/-- After the first store the output block holds the device's own column maximum, whatever it held before. -/
theorem first_store (c : Dev nD) (g : (cc0_stg1_0 : Ref sig .tc).ty.Contents (Elt F)) :
    (oM : Memref sig .tc .vmem S1x768 .f32).view.writes (Elt F) g
        [⟨rO, k0_pay2 ((xM : Memref sig .tc .vmem S1536x768 .f32).view.readAt (Elt F) rX.toLoadRect (xblk m c))⟩]
      = colmax m c := by
  rw [write_o, read_x]; rfl

/-- After the last store the output block holds the maximum of the device's own column maximum (as the first part read
    it back) and what landed. -/
theorem last_store (c : Dev nD) (v : (cc0_stg1_0 : Ref sig .tc).ty.Contents (Elt F))
    (hv : v = k0_pay3 ((oM : Memref sig .tc .vmem S1x768 .f32).view.readAt (Elt F) rO.toLoadRect (colmax m c))) :
    (oM : Memref sig .tc .vmem S1x768 .f32).view.writes (Elt F) (colmax m c)
        [⟨rO, k0_pay1 v ((rM : Memref sig .tc .vmem S1x768 .f32).view.readAt (Elt F) rO.toLoadRect (colmax m (peer c)))⟩]
      = result m c := by
  subst hv; rw [write_o, read_o, read_r]; rfl

/-- The copy on device c, by the rounds library's send rule: the output block holding c's column maximum goes into the
    partner's landing buffer. It pays c's own send duty (the block comes back when it has been read) and the partner's
    receive duty (the landing buffer then holds c's column maximum, which is what the partner's cell promises its owner,
    the partner's partner being c). The device the copy addresses is given as n with n = peer c. -/
theorem wp_copy (c n : Dev nD) (hn : n = peer c) {hsc : (rM : Memref sig (Dev.tc n : Thread nD τ).2.kind .vmem S1x768 .f32).view.ref.isScScratch = false}
    {hsrc : (oM : Memref sig .tc .vmem S1x768 .f32).view.WordExact} {hdst : (rM : Memref sig .tc .vmem S1x768 .f32).view.WordExact}
    {hsem : DmaTarget.Typed .vmem (.dma recvS.sem) (.remote (Dev.tc n : Thread nD τ) (rM : Memref sig .tc .vmem S1x768 .f32) (.dma sendS.sem) hsc)}
    {α : Type} {Q : α → sProp 𝕄} {k : PUnit → Prog (TpuEff nD τ sig (Elt F) Λ₀ .tc) α}
    (fn : Buf (Elt F) ((rM : Memref sig .tc .vmem S1x768 .f32).view.loc (peer c : Thread nD τ))) (W : Waits sig Unit) :
    iprop(cellInv ER (plan m) (K (c, 1)) (sendCell c) ∗ cellInv ER (plan m) (K (peer c, 2)) (recvCell (peer c))
        ∗ ((oM : Memref sig .tc .vmem S1x768 .f32).view.loc (c : Thread nD τ) ↦[(oM : Memref sig .tc .vmem S1x768 .f32).view.set]{fullShare} colmax m c)
        ∗ ((rM : Memref sig .tc .vmem S1x768 .f32).view.loc (peer c : Thread nD τ) ↦[(rM : Memref sig .tc .vmem S1x768 .f32).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) rM (.dma sendS.sem) hsc) (.dma recvS.sem) hsrc hdst hsem) (fun x => (Prog.ret x).bind k)) Q) := by
  subst hn
  exact Rounds.wp_send_pointsTo 𝒱₀ ER (plan m) (c : Thread nD τ) none (κ₁ := K (c, 1)) (κ₂ := K (peer c, 2))
    (r₁ := 0) (r₂ := 0) (d₁ := ()) (d₂ := ()) (fd := fn) (k := fun x => (Prog.ret x).bind k)
    (by rw [duties_send]; exact Finset.mem_singleton_self _) (by rw [duties_recv]; exact Finset.mem_singleton_self _)
    () () N rfl (amount_send m c ()) (amount_recv m (peer c) ()) 0 (by rw [zero_add]) (W := W)
    (by rw [payload_send]; unfold sendPay outPts; exact BI.Entails.refl _)
    (by rw [payload_recv]; unfold recvPay scrPts; rw [landing_eq, arrived, peer_peer])

-- While the body is stepped the column maxima are opaque values: a copy's payload is matched by the whole-view
-- read and write laws, never by unfolding a reduction over a 1536×768 block.
attribute [local irreducible] colmax result

-- the one pure fact the closing step meets: after the last point any recorded set of waits lies within the bound
local macro_rules | `(tactic| sl_pure) => `(tactic| exact fun _ _ => Or.inl trivial)

/-- The body on device c, stepped effect by effect from `bodyPre` to `bodyMid`, the copy itself by the send rule
    (`wp_copy`). The output block's contents are restated twice, by `first_store` before the copy (whose duties name
    the column maximum) and by `last_store` at the end. -/
theorem sound_body (c : Dev nD) (Kt : PUnit → sProp 𝕄) :
    iprop(bodyPre m K c ∗ (bodyMid m K c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ scrPts
  -- the barrier wait's evidence, and the two device chains as the partner
  have hmw := mayWait_bar (F := F) c
  have hd1 := dev1_eq c
  have hd2 := dev2_eq c
  ihave Hx := (Entails.of_eq (xin_view_eq (F := F) c _).symm) $$ Hx
  ihave Hout := (Entails.of_eq (out_view_eq (F := F) c _).symm) $$ Hout
  clear hg0 hg1
  -- the signal, the loads, the first store and the barrier wait
  set_option sl_exec.maxSteps 13 in sl_exec
  ihave Hout := (Entails.of_eq (congrArg (fun f => ((oM : Memref sig .tc .vmem S1x768 .f32).view.loc (c : Thread nD τ) ↦[(oM : Memref sig .tc .vmem S1x768 .f32).view.set]{fullShare} f : sProp 𝕄)) (first_store m c g1))) $$ Hout
  -- the copy, by the send rule at the partner (the device chain of the copy names it)
  iapply (wp_copy m K c _ (dev2_eq c) HatB_pay1_v _) $$ [Hout HatB_pay1 HO HtS HtVP]
  · isplitr; · iexact HIsnd
    isplitr; · iexact HIrcvP
    isplitl [Hout]; · iexact Hout
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- its two waits, the loads and the last store
  sl_exec
  sl_step
  iapply Hk
  unfold bodyMid
  ihave Hx := (Entails.of_eq (xin_view_eq (F := F) c _)) $$ Hx
  ihave HatS_pay1 := (Entails.of_eq (congrArg (fun f => ((oM : Memref sig .tc .vmem S1x768 .f32).view.loc (c : Thread nD τ) ↦[(oM : Memref sig .tc .vmem S1x768 .f32).view.set]{fullShare} f : sProp 𝕄))
    (last_store m c (sound_body.sl.r m c) (by unfold sound_body.sl.r; rfl)))) $$ HatS_pay1
  ihave HatS_pay1 := (Entails.of_eq (out_view_eq (F := F) c _)) $$ HatS_pay1
  sl_close

/-- The two own cells have no round after round 0: at round 1 their owner closes them and has their counters at zero. -/
theorem mid_to_post (c : Dev nD) : bodyMid m K c ⊢ |={Set.univ}=> bodyPost m c := by
  unfold bodyMid bodyPost Φ₁
  iintro ⟨#HIsnd, #HIrcv, Hscr, HatS, HatV, HO, Hx, Hout⟩
  imod (Rounds.cell_close ER (plan m) (Set.mem_univ (K (c, 1))) (fun h => h) (R := 1) (duties_later m (sendCell c))) $$ [HatS] with HzS
  · isplitr; · iexact HIsnd
    iexact HatS
  imod (Rounds.cell_close ER (plan m) (Set.mem_univ (K (c, 2))) (fun h => h) (R := 1) (duties_later m (recvCell c))) $$ [HatV] with HzV
  · isplitr; · iexact HIrcv
    iexact HatV
  imodintro
  isplitl [Hscr HzS HzV]
  · isplitl [Hscr]; · iexact Hscr
    isplitl [HzS]; · iexact HzS
    iexact HzV
  isplitl [HO]; · iexact HO
  isplitl [Hx]; · iexact Hx
  iexact Hout

end Body

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  refine BIBase.Entails.trans ?_ (wp_fupd _ _ _ _ _)
  unfold bodyPre' Φ₀ start
  iintro ⟨⟨⟨⟨%K, Hg⟩, Hrest⟩, Hscr⟩, Ho, Hx, Hout⟩
  iapply (sound_body m K c fun _ => iprop(|={Set.univ}=> bodyPost m c))
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iapply (mid_to_post m K c); iexact H

end Cert.KernelIdeal.Exchange

end
-- ==== Proof.MeshRun.lean ====
/-
  The launch of the distributed column maximum on the four devices.

  The exchange's ghost state is funded once for all devices: every device's three cells (barrier, send, receive) at
  round 0, their positions with their owners, and one duty token per cell. The barrier semaphore is the runtime's and
  is not scoped to the launch, so its counter at zero comes with the unscoped semaphores and all cells are allocated
  under one update for every device together. The tokens are then dealt to the devices that pay them: a device's
  barrier and receive tokens go to its partner, its send token stays. What the partner owes a device's barrier and
  receive cells is that device's launch credit. From these each device's body obligation (Body.lean) gives the run:
  every fair interleaving of the four devices terminates, nothing faults, x is unchanged on every device and each
  device's result array holds the maximum of its own and its partner's column maxima.
-/
import proofs.«900375_g7700000000000376_dist_max_ax0_xy_m1536_n768_v7x_xy2x2_f32_1_alg».proof.Proof.Body
import proofs.«900375_g7700000000000376_dist_max_ax0_xy_m1536_n768_v7x_xy2x2_f32_1_alg».proof.Proof.Gen.KernelIdeal.Points
import Idealize.ShloMosaic.Lib.Pipeline.Value

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def planCells : Finset (GSem nD τ sig) := Finset.univ.map ⟨kcell, kcell_injective⟩

/-- One duty token per cell, as minted: the cell, round 0, its one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def planToks : Finset (GSem nD τ sig × ℕ × Unit) := Finset.univ.map ⟨tokOf, tokOf_injective⟩

def u₀ : UU :=
  (initOf (Pipeline.cells cfgs cellOf_inj) (Pipeline.launchToks cfgs cellOf_inj), initOf planCells planToks)

/-- The duty tokens of device c's own three cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (plan m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_plan : BI.own (ER (initOf planCells planToks)) ⊢ (|==> bigSep Finset.univ (G m) : sProp 𝕄) := by
  have hX (Φ : GSem nD τ sig → sProp 𝕄) : bigSep planCells Φ = bigSep Finset.univ fun c : Dev nD => bigSep Finset.univ fun k : Fin 3 => Φ (kcell (c, k)) := by
    unfold planCells; rw [bigSep_map, bigSep_univ_prod]; rfl
  have hT : bigSep planToks (fun x => (dutyTok ER x.1 x.2.1 x.2.2 : sProp 𝕄)) = bigSep Finset.univ fun c : Dev nD => toks c := by
    unfold planToks; rw [bigSep_map, bigSep_univ_prod]
    exact bigSep_congr fun c _ => by unfold toks; rw [bigSep_fin3]; rfl
  iintro HX
  imod (Rounds.fund ER (plan m) planCells planToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once -/

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (plan m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (plan m) (K ck) (kcell ck) : sProp 𝕄)) ⊢ cellInv ER (plan m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the partner involution: a device's barrier and receive tokens go to its partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (plan m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (plan m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the partner owes a device's cells -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- Device d owes device c's barrier cell one unit exactly when d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (arrived m c); rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The arrays after the run, as the proof data name them. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, at any float instance, from any memory with zero counters: every weakly fair
    execution of @main terminates without a fault, and in every final state each window's array on each device is the
    one the proof data name. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_plan m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m c (0 : Fin 2) = m (win0_0.arr.view.loc (c : Thread nD τ)) :=
  (dats (F := F) m 0 c).arrAt_in (0 : Fin 2) rfl _

omit [FloatOps F] in
/-- The output window is the whole result array, its one block at index 0: entry y of the block is entry y of the array. -/
theorem out_emb (y : S1x768.Idx) : (win0_1.blk (0 : Fin 1)).view.emb y = y := funext fun a => Fin.ext (by
  show win0_1.index (0 : Fin 1) a * S1x768.size a + 1 * (y a).val = (y a).val
  have h0 : win0_1.index (0 : Fin 1) a = 0 := rfl
  rw [h0]; omega)

/-- The result array after the run holds the result: the one point writes the whole array back. -/
theorem finalA_out (c : Dev nD) : finalA m c (1 : Fin 2) = result m c :=
  (dats (F := F) m 0 c).arrAt_eq_of_cover (1 : Fin 2) (result m c)
    (fun t _ => by
      rw [fin_N t]
      funext x
      show result m c x = result m c ((win0_1.blk (0 : Fin 1)).view.emb x)
      rw [out_emb])
    (fun i => ⟨t₀, flush0_1 t₀, by
      have h := ((cfg0.win (1 : Fin 2)).blk t₀).view.emb_mem_set i
      rwa [show ((cfg0.win (1 : Fin 2)).blk t₀).view.emb i = i from out_emb i] at h⟩)

end Cert.KernelIdeal.Exchange

end
-- ==== Proof.ExchangeWord.lean ====
/-
  The exchange protocol of the distributed column maximum, on the 2×2 mesh.

  Device c holds a [1536, 768] block of x. It signals its partner along mesh axis x (the device with the other row
  half of the same columns), stores the column maximum of its own block in its output block, waits for the partner's
  signal, copies its output block into the partner's landing buffer, waits until its own block has been read and the
  partner's has landed, and stores the maximum of the two.

  Three cells per device, one round each, one duty each:
    the barrier cell   — one unit, paid by the partner's signal; it hands the waiter the PARTNER's landing buffer
                         (at any contents) and the fact that the partner's receive cell is at round 0: what the
                         copy into that buffer needs;
    the send cell      — the block's credit, paid by the device's own copy once its output block has been read;
                         it hands the output block back, holding the device's own column maximum;
    the receive cell   — the block's credit, paid by the partner's copy once it has landed; it hands the landing
                         buffer over, holding the partner's column maximum.
  A device waits on its barrier cell while it still owes the partner's receive cell its copy; the levels put the
  receive cells above the barrier cells, and everything else below both.
-/
import proofs.«900375_g7700000000000376_dist_max_ax0_xy_m1536_n768_v7x_xy2x2_f32_1_alg».proof.Proof.Gen.Kernel
import proofs.«900375_g7700000000000376_dist_max_ax0_xy_m1536_n768_v7x_xy2x2_f32_1_alg».proof.Proof.Gen.Kernel.Skeleton
import proofs.«900375_g7700000000000376_dist_max_ax0_xy_m1536_n768_v7x_xy2x2_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the staging pipeline's, and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner: the other device of the same mesh column (0 ↔ 2, 1 ↔ 3) -/

def peer (c : Dev nD) : Dev nD := ⟨(c.val + 2) % 4, Nat.mod_lt _ (by decide)⟩

@[sl_rounds] theorem peer_peer (c : Dev nD) : peer (peer c) = c := by revert c; decide
theorem peer_ne (c : Dev nD) : peer c ≠ c := by revert c; decide

/-- Both device chains of the body — the signal's and the copy's — name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The buffers and the cells -/

abbrev xM : Memref sig .tc .vmem S1536x768 .f32 := Memref.whole cc0_stg0_0
abbrev oM : Memref sig .tc .vmem S1x768 .f32 := Memref.whole cc0_stg1_0
abbrev rM : Memref sig .tc .vmem S1x768 .f32 := Memref.whole cc0_scratch0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one [1, 768] block. -/
abbrev N : ℕ := (rM : Memref sig .tc .vmem S1x768 .f32).view.dmaCredit
theorem N_pos : 0 < N := View.dmaCredit_pos _ (by decide)

/-! ## What the buffers hold -/

/-- Device c's block of x, as its staging buffer holds it. -/
def xblk (c : Dev nD) : (cc0_stg0_0 : Ref sig .tc).ty.Contents (Elt F) :=
  (win0_0.blk (0 : Fin 1)).view.read (Elt F) (m ((c : Thread nD τ).loc main_arg0))

/-- The column maximum of device c's own block: what its output block holds between the two stores. -/
def colmax (c : Dev nD) : (cc0_stg1_0 : Ref sig .tc).ty.Contents (Elt F) := k0_pay2 (xblk m c)

/-- What lands in device c's landing buffer: the partner's column maximum. -/
def arrived (c : Dev nD) : Buf (Elt F) ((rM : Memref sig .tc .vmem S1x768 .f32).view.loc (c : Thread nD τ)) := colmax m (peer c)

/-- The kernel's result on device c: the maximum of its own column maximum and the partner's. -/
def result (c : Dev nD) : (cc0_stg1_0 : Ref sig .tc).ty.Contents (Elt F) := k0_pay1 (k0_pay3 (colmax m c)) (colmax m (peer c))

def scrPts (c : Dev nD) (f : Buf (Elt F) ((rM : Memref sig .tc .vmem S1x768 .f32).view.loc (c : Thread nD τ))) : sProp 𝕄 :=
  (rM : Memref sig .tc .vmem S1x768 .f32).view.loc (c : Thread nD τ) ↦[(rM : Memref sig .tc .vmem S1x768 .f32).view.set]{fullShare} f
def outPts (c : Dev nD) : sProp 𝕄 :=
  (oM : Memref sig .tc .vmem S1x768 .f32).view.loc (c : Thread nD τ) ↦[(oM : Memref sig .tc .vmem S1x768 .f32).view.set]{fullShare} colmax m c

omit [FloatOps F] in
instance scrPts_storable (c : Dev nD) (f) : BI.Storable (upEmb : UEmb _ 𝕄) (scrPts (F := F) c f) := by unfold scrPts; infer_instance
instance outPts_storable (c : Dev nD) : BI.Storable (upEmb : UEmb _ 𝕄) (outPts (F := F) m c) := by unfold outPts; infer_instance

omit [FloatOps F] in
theorem scr_set : (rM : Memref sig .tc .vmem S1x768 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
theorem outPts_eq (c : Dev nD) : outPts m c = (((c : Thread nD τ).loc cc0_stg1_0) ↦{fullShare} colmax m c : sProp 𝕄) := by
  unfold outPts; rw [View.set_whole]

omit [FloatOps F] in
/-- A whole output block copied over a whole landing buffer leaves exactly the block. -/
theorem landing_eq (c : Dev nD) (fd : Buf (Elt F) ((rM : Memref sig .tc .vmem S1x768 .f32).view.loc (c : Thread nD τ))) (fs : (cc0_stg1_0 : Ref sig .tc).ty.Contents (Elt F)) :
    (rM : Memref sig .tc .vmem S1x768 .f32).view.write (Elt F) fd ((oM : Memref sig .tc .vmem S1x768 .f32).view.read (Elt F) fs) Finset.univ = fs := by
  show (View.whole cc0_scratch0).write (Elt F) fd ((View.whole cc0_stg1_0).read (Elt F) fs) Finset.univ = fs
  rw [View.read_whole]
  exact View.write_whole_univ _ _ _

/-! ## The schedule -/

/-- The partner's signal hands c the partner's landing buffer and that the partner's receive cell is at round 0. -/
def barPay (c : Dev nD) : sProp 𝕄 := iprop((∃ f, scrPts (peer c) f) ∗ reached ER (recvCell (peer c)) 0)
def recvPay (c : Dev nD) : sProp 𝕄 := scrPts c (arrived m c)
def sendPay (c : Dev nD) : sProp 𝕄 := outPts m c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round: each barrier cell one duty of one unit; each send or receive cell one duty of the block's credit. -/
def plan : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance plan_payload_storable (g : GSem nD τ sig) (r : ℕ) (d : Unit) :
    BI.Storable (upEmb : UEmb _ 𝕄) ((plan (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

@[sl_rounds] theorem duties_bar : (plan (F := F) m).duties (barCell c) 0 = {()} := by
  dsimp only [plan]; exact if_pos ⟨rfl, .inl ⟨rfl, rfl⟩⟩
@[sl_rounds] theorem duties_send : (plan (F := F) m).duties (sendCell c) 0 = {()} := by
  dsimp only [plan]; exact if_pos ⟨rfl, .inr ⟨rfl, .inl rfl⟩⟩
@[sl_rounds] theorem duties_recv : (plan (F := F) m).duties (recvCell c) 0 = {()} := by
  dsimp only [plan]; exact if_pos ⟨rfl, .inr ⟨rfl, .inr rfl⟩⟩
theorem duties_later (g : GSem nD τ sig) : ∀ r, 1 ≤ r → (plan (F := F) m).duties g r = ∅ :=
  fun r hr => by dsimp only [plan]; rw [if_neg fun h => by omega]

@[sl_rounds] theorem amount_bar (d : Unit) : (plan (F := F) m).amount (barCell c) 0 d = 1 := by dsimp only [plan]; exact if_pos rfl
@[sl_rounds] theorem amount_send (d : Unit) : (plan (F := F) m).amount (sendCell c) 0 d = N := by dsimp only [plan]; exact if_neg send_ne_bar
@[sl_rounds] theorem amount_recv (d : Unit) : (plan (F := F) m).amount (recvCell c) 0 d = N := by dsimp only [plan]; exact if_neg recv_ne_bar

@[sl_rounds] theorem expect_bar : (plan (F := F) m).expect (barCell c) 0 = 1 := by
  unfold Schedule.expect Schedule.amountOf; rw [duties_bar, Finset.sum_singleton, amount_bar]
@[sl_rounds] theorem expect_send : (plan (F := F) m).expect (sendCell c) 0 = N := by
  unfold Schedule.expect Schedule.amountOf; rw [duties_send, Finset.sum_singleton, amount_send]
@[sl_rounds] theorem expect_recv : (plan (F := F) m).expect (recvCell c) 0 = N := by
  unfold Schedule.expect Schedule.amountOf; rw [duties_recv, Finset.sum_singleton, amount_recv]

theorem payload_bar (d : Unit) : (plan (F := F) m).payload (barCell c) 0 d = barPay c := by dsimp only [plan]; rw [if_pos rfl]
theorem payload_send (d : Unit) : (plan (F := F) m).payload (sendCell c) 0 d = sendPay m c := by
  dsimp only [plan]; rw [if_neg send_ne_bar, if_neg send_ne_recv, if_pos rfl]
theorem payload_recv (d : Unit) : (plan (F := F) m).payload (recvCell c) 0 d = recvPay m c := by
  dsimp only [plan]; rw [if_neg recv_ne_bar, if_pos rfl]

/-- The payloads spelt out, as the body's steps meet them. -/
@[sl_rounds] theorem payload_bar' (d : Unit) : (plan (F := F) m).payload (barCell c) 0 d
    = iprop((∃ f, (rM : Memref sig .tc .vmem S1x768 .f32).view.loc (peer c : Thread nD τ) ↦[(rM : Memref sig .tc .vmem S1x768 .f32).view.set]{fullShare} f) ∗ reached ER (recvCell (peer c)) 0) := by
  rw [payload_bar]; rfl
@[sl_rounds] theorem payload_send' (d : Unit) : (plan (F := F) m).payload (sendCell c) 0 d
    = ((oM : Memref sig .tc .vmem S1x768 .f32).view.loc (c : Thread nD τ) ↦[(oM : Memref sig .tc .vmem S1x768 .f32).view.set]{fullShare} colmax m c : sProp 𝕄) := by
  rw [payload_send]; rfl
@[sl_rounds] theorem payload_recv' (d : Unit) : (plan (F := F) m).payload (recvCell c) 0 d
    = ((rM : Memref sig .tc .vmem S1x768 .f32).view.loc (c : Thread nD τ) ↦[(rM : Memref sig .tc .vmem S1x768 .f32).view.set]{fullShare} colmax m (peer c) : sProp 𝕄) := by
  rw [payload_recv]; rfl

theorem rest_bar : bigSep ((plan (F := F) m).duties (barCell c) 0 \ ∅) (fun d => (plan (F := F) m).payload (barCell c) 0 d) = barPay c := by
  rw [Finset.sdiff_empty, duties_bar, bigSep_singleton, payload_bar]
theorem rest_send : bigSep ((plan (F := F) m).duties (sendCell c) 0 \ ∅) (fun d => (plan (F := F) m).payload (sendCell c) 0 d) = sendPay m c := by
  rw [Finset.sdiff_empty, duties_send, bigSep_singleton, payload_send]
theorem rest_recv : bigSep ((plan (F := F) m).duties (recvCell c) 0 \ ∅) (fun d => (plan (F := F) m).payload (recvCell c) 0 d) = recvPay m c := by
  rw [Finset.sdiff_empty, duties_recv, bigSep_singleton, payload_recv]

end Tables

/-! ## What each device owes at launch; the levels -/

/-- Device c owes the partner's receive cell the block's credit (its copy) and the partner's barrier cell one unit
    (its signal). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (the staging cells, the send cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging cell (level 0) is allowed whatever the device still owes: all of it lies above. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the partner's receive cell only: above its own barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## What a device starts its body from, and the pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device c's body opens, at the names K the launch allocated them: its own three cells', and the
    partner's barrier and receive cells' (its signal, its copy). -/
def invs (K : Dev nD × Fin 3 → ℕ) (c : Dev nD) : sProp 𝕄 :=
  iprop(cellInv ER (plan m) (K (c, 0)) (barCell c) ∗ cellInv ER (plan m) (K (c, 1)) (sendCell c) ∗ cellInv ER (plan m) (K (c, 2)) (recvCell c)
    ∗ cellInv ER (plan m) (K (peer c, 0)) (barCell (peer c)) ∗ cellInv ER (plan m) (K (peer c, 2)) (recvCell (peer c)))

instance invs_persistent (K : Dev nD × Fin 3 → ℕ) (c : Dev nD) : BI.Persistent (invs m K c) := by unfold invs; infer_instance

/-- The exchange's ghost state on device c: the invariants; its positions at round 0 of its three cells; round 0 reached
    of the two cells it pays and of its own send and receive cells; the three duty tokens it pays with — the partner's
    barrier duty, the partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- That at some names, the two credit tokens for what the partner owes c's cells, and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the one point: the landing buffer holding the partner's column maximum, the two own cells closed at zero. -/
def Φ₁ (c : Dev nD) : sProp 𝕄 := iprop(scrPts c (arrived m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Exchange

end
-- ==== Proof.BodyWord.lean ====
/-
  One device's body of the distributed column maximum, stepped once at a symbolic device c.

  From the exchange's ghost state on c (Exchange.lean) the body is run effect by effect: the signal to the partner
  pays the partner's barrier duty with c's own landing buffer; the first store leaves c's column maximum in the
  output block; the barrier wait, taken while c still owes its copy, brings the partner's landing buffer; the copy
  pays c's send duty with the output block and the partner's receive duty with that block landed; the two waits
  bring the output block back and c's landing buffer holding the partner's column maximum; the last store leaves
  the maximum of the two. Afterwards c's own send and receive cells, which have no later round, are closed.
-/
import proofs.«900375_g7700000000000376_dist_max_ax0_xy_m1536_n768_v7x_xy2x2_f32_1_alg».proof.Proof.ExchangeWord

noncomputable section

namespace Cert.Kernel.Exchange

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What device c's body starts from: the exchange's ghost state and credit, its landing buffer at any contents, what
    it owes, and the two staging buffers as the pipeline hands them over. -/
def bodyPre (c : Dev nD) : sProp 𝕄 :=
  iprop((ghost m K c ∗ cred (tallyAt (barCell c) () 1) ∗ cred (tallyAt (recvCell c) () N) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What the stepped body leaves: the landing buffer holding the partner's column maximum, the two own cells at round 1
    (with their invariants, to close them), nothing owed, the x block unchanged and the output block at the result. -/
def bodyMid (c : Dev nD) : sProp 𝕄 :=
  iprop(cellInv ER (plan m) (K (c, 1)) (sendCell c) ∗ cellInv ER (plan m) (K (c, 2)) (recvCell c)
    ∗ scrPts c (arrived m c) ∗ atPos ER (sendCell c) 1 ∅ 0 ∗ atPos ER (recvCell c) 1 ∅ 0
    ∗ (dats m 0 c).owesAt () t₀.succ ∗ stg c cc0_stg0_0 (xblk m c) ∗ stg c cc0_stg1_0 (result m c))

def bodyPost (c : Dev nD) : sProp 𝕄 :=
  iprop(Φ₁ m c ∗ (dats m 0 c).owesAt () t₀.succ ∗ stg c cc0_stg0_0 (xblk m c) ∗ stg c cc0_stg1_0 (result m c))

/-- The barrier duty device c pays, on its partner's cell: it hands over c's OWN landing buffer and that c's own receive
    cell is at round 0. -/
theorem payload_bar_peer (c : Dev nD) (d : Unit) : (plan (F := F) m).payload (barCell (peer c)) 0 d
    = iprop((∃ f, (rM : Memref sig .tc .vmem S1x768 .f32).view.loc (c : Thread nD τ) ↦[(rM : Memref sig .tc .vmem S1x768 .f32).view.set]{fullShare} f) ∗ reached ER (recvCell c) 0) := by
  rw [payload_bar]
  have h : ∀ e : Dev nD, e = c → (iprop((∃ f, scrPts e f) ∗ reached ER (recvCell e) 0) : sProp 𝕄)
      = iprop((∃ f, (rM : Memref sig .tc .vmem S1x768 .f32).view.loc (c : Thread nD τ) ↦[(rM : Memref sig .tc .vmem S1x768 .f32).view.set]{fullShare} f) ∗ reached ER (recvCell c) 0) :=
    fun e he => by subst he; rfl
  exact h _ (peer_peer c)

attribute [local sl_rounds high] payload_bar_peer

omit [FloatOps F] in
/-- The two staging buffers held whole, stated through their memrefs' views. -/
theorem xin_view_eq (c : Dev nD) (f : Buf (Elt F) ((c : Thread nD τ).loc cc0_stg0_0)) :
    ((xM : Memref sig .tc .vmem S1536x768 .f32).view.loc (c : Thread nD τ) ↦[(xM : Memref sig .tc .vmem S1536x768 .f32).view.set]{fullShare} f : sProp 𝕄)
      = (((c : Thread nD τ).loc cc0_stg0_0) ↦{fullShare} f : sProp 𝕄) := by rw [View.set_whole]
omit [FloatOps F] in
theorem out_view_eq (c : Dev nD) (f : Buf (Elt F) ((c : Thread nD τ).loc cc0_stg1_0)) :
    ((oM : Memref sig .tc .vmem S1x768 .f32).view.loc (c : Thread nD τ) ↦[(oM : Memref sig .tc .vmem S1x768 .f32).view.set]{fullShare} f : sProp 𝕄)
      = (((c : Thread nD τ).loc cc0_stg1_0) ↦{fullShare} f : sProp 𝕄) := by rw [View.set_whole]

abbrev rX : Rect S1536x768 := Rect.unit (s := S1536x768) ![0, 0] S1536x768.size inb_S1536x768_S1536x768_0_0
abbrev rO : Rect S1x768 := Rect.unit (s := S1x768) ![0, 0] S1x768.size inb_S1x768_S1x768_0_0

omit [FloatOps F] in
theorem hz : (![0, 0] : Fin 2 → Nat) = fun _ => 0 := funext fun a => by fin_cases a <;> rfl

omit [FloatOps F] in
/-- A whole-block load reads the block; a whole-block store leaves exactly what was stored. -/
theorem read_x (f : (cc0_stg0_0 : Ref sig .tc).ty.Contents (Elt F)) :
    (xM : Memref sig .tc .vmem S1536x768 .f32).view.readAt (Elt F) rX.toLoadRect f = f :=
  Memref.readAt_unit_zero (Elt F) cc0_stg0_0 hz _ f
omit [FloatOps F] in
theorem read_o (f : (cc0_stg1_0 : Ref sig .tc).ty.Contents (Elt F)) :
    (oM : Memref sig .tc .vmem S1x768 .f32).view.readAt (Elt F) rO.toLoadRect f = f :=
  Memref.readAt_unit_zero (Elt F) cc0_stg1_0 hz _ f
omit [FloatOps F] in
theorem read_r (f : (cc0_scratch0 : Ref sig .tc).ty.Contents (Elt F)) :
    (rM : Memref sig .tc .vmem S1x768 .f32).view.readAt (Elt F) rO.toLoadRect f = f :=
  Memref.readAt_unit_zero (Elt F) cc0_scratch0 hz _ f
omit [FloatOps F] in
theorem write_o (f w : (cc0_stg1_0 : Ref sig .tc).ty.Contents (Elt F)) :
    (oM : Memref sig .tc .vmem S1x768 .f32).view.writes (Elt F) f [⟨rO, w⟩] = w := by
  show ((oM : Memref sig .tc .vmem S1x768 .f32).access rO : View sig .tc _ _ _).write (Elt F) f w Finset.univ = w
  exact Memref.write_access_unit_zero_univ (Elt F) cc0_stg1_0 hz _ f w

/-- After the first store the output block holds the device's own column maximum, whatever it held before. -/
theorem first_store (c : Dev nD) (g : (cc0_stg1_0 : Ref sig .tc).ty.Contents (Elt F)) :
    (oM : Memref sig .tc .vmem S1x768 .f32).view.writes (Elt F) g
        [⟨rO, k0_pay2 ((xM : Memref sig .tc .vmem S1536x768 .f32).view.readAt (Elt F) rX.toLoadRect (xblk m c))⟩]
      = colmax m c := by
  rw [write_o, read_x]; rfl

/-- After the last store the output block holds the maximum of the device's own column maximum (as the first part read
    it back) and what landed. -/
theorem last_store (c : Dev nD) (v : (cc0_stg1_0 : Ref sig .tc).ty.Contents (Elt F))
    (hv : v = k0_pay3 ((oM : Memref sig .tc .vmem S1x768 .f32).view.readAt (Elt F) rO.toLoadRect (colmax m c))) :
    (oM : Memref sig .tc .vmem S1x768 .f32).view.writes (Elt F) (colmax m c)
        [⟨rO, k0_pay1 v ((rM : Memref sig .tc .vmem S1x768 .f32).view.readAt (Elt F) rO.toLoadRect (colmax m (peer c)))⟩]
      = result m c := by
  subst hv; rw [write_o, read_o, read_r]; rfl

/-- The copy on device c, by the rounds library's send rule: the output block holding c's column maximum goes into the
    partner's landing buffer. It pays c's own send duty (the block comes back when it has been read) and the partner's
    receive duty (the landing buffer then holds c's column maximum, which is what the partner's cell promises its owner,
    the partner's partner being c). The device the copy addresses is given as n with n = peer c. -/
theorem wp_copy (c n : Dev nD) (hn : n = peer c) {hsc : (rM : Memref sig (Dev.tc n : Thread nD τ).2.kind .vmem S1x768 .f32).view.ref.isScScratch = false}
    {hsrc : (oM : Memref sig .tc .vmem S1x768 .f32).view.WordExact} {hdst : (rM : Memref sig .tc .vmem S1x768 .f32).view.WordExact}
    {hsem : DmaTarget.Typed .vmem (.dma recvS.sem) (.remote (Dev.tc n : Thread nD τ) (rM : Memref sig .tc .vmem S1x768 .f32) (.dma sendS.sem) hsc)}
    {α : Type} {Q : α → sProp 𝕄} {k : PUnit → Prog (TpuEff nD τ sig (Elt F) Λ₀ .tc) α}
    (fn : Buf (Elt F) ((rM : Memref sig .tc .vmem S1x768 .f32).view.loc (peer c : Thread nD τ))) (W : Waits sig Unit) :
    iprop(cellInv ER (plan m) (K (c, 1)) (sendCell c) ∗ cellInv ER (plan m) (K (peer c, 2)) (recvCell (peer c))
        ∗ ((oM : Memref sig .tc .vmem S1x768 .f32).view.loc (c : Thread nD τ) ↦[(oM : Memref sig .tc .vmem S1x768 .f32).view.set]{fullShare} colmax m c)
        ∗ ((rM : Memref sig .tc .vmem S1x768 .f32).view.loc (peer c : Thread nD τ) ↦[(rM : Memref sig .tc .vmem S1x768 .f32).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) rM (.dma sendS.sem) hsc) (.dma recvS.sem) hsrc hdst hsem) (fun x => (Prog.ret x).bind k)) Q) := by
  subst hn
  exact Rounds.wp_send_pointsTo 𝒱₀ ER (plan m) (c : Thread nD τ) none (κ₁ := K (c, 1)) (κ₂ := K (peer c, 2))
    (r₁ := 0) (r₂ := 0) (d₁ := ()) (d₂ := ()) (fd := fn) (k := fun x => (Prog.ret x).bind k)
    (by rw [duties_send]; exact Finset.mem_singleton_self _) (by rw [duties_recv]; exact Finset.mem_singleton_self _)
    () () N rfl (amount_send m c ()) (amount_recv m (peer c) ()) 0 (by rw [zero_add]) (W := W)
    (by rw [payload_send]; unfold sendPay outPts; exact BI.Entails.refl _)
    (by rw [payload_recv]; unfold recvPay scrPts; rw [landing_eq, arrived, peer_peer])

-- While the body is stepped the column maxima are opaque values: a copy's payload is matched by the whole-view
-- read and write laws, never by unfolding a reduction over a 1536×768 block.
attribute [local irreducible] colmax result

-- the one pure fact the closing step meets: after the last point any recorded set of waits lies within the bound
local macro_rules | `(tactic| sl_pure) => `(tactic| exact fun _ _ => Or.inl trivial)

/-- The body on device c, stepped effect by effect from `bodyPre` to `bodyMid`, the copy itself by the send rule
    (`wp_copy`). The output block's contents are restated twice, by `first_store` before the copy (whose duties name
    the column maximum) and by `last_store` at the end. -/
theorem sound_body (c : Dev nD) (Kt : PUnit → sProp 𝕄) :
    iprop(bodyPre m K c ∗ (bodyMid m K c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ scrPts
  -- the barrier wait's evidence, and the two device chains as the partner
  have hmw := mayWait_bar (F := F) c
  have hd1 := dev1_eq c
  have hd2 := dev2_eq c
  ihave Hx := (Entails.of_eq (xin_view_eq (F := F) c _).symm) $$ Hx
  ihave Hout := (Entails.of_eq (out_view_eq (F := F) c _).symm) $$ Hout
  clear hg0 hg1
  -- the signal, the loads, the first store and the barrier wait
  set_option sl_exec.maxSteps 13 in sl_exec
  ihave Hout := (Entails.of_eq (congrArg (fun f => ((oM : Memref sig .tc .vmem S1x768 .f32).view.loc (c : Thread nD τ) ↦[(oM : Memref sig .tc .vmem S1x768 .f32).view.set]{fullShare} f : sProp 𝕄)) (first_store m c g1))) $$ Hout
  -- the copy, by the send rule at the partner (the device chain of the copy names it)
  iapply (wp_copy m K c _ (dev2_eq c) HatB_pay1_v _) $$ [Hout HatB_pay1 HO HtS HtVP]
  · isplitr; · iexact HIsnd
    isplitr; · iexact HIrcvP
    isplitl [Hout]; · iexact Hout
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- its two waits, the loads and the last store
  sl_exec
  sl_step
  iapply Hk
  unfold bodyMid
  ihave Hx := (Entails.of_eq (xin_view_eq (F := F) c _)) $$ Hx
  ihave HatS_pay1 := (Entails.of_eq (congrArg (fun f => ((oM : Memref sig .tc .vmem S1x768 .f32).view.loc (c : Thread nD τ) ↦[(oM : Memref sig .tc .vmem S1x768 .f32).view.set]{fullShare} f : sProp 𝕄))
    (last_store m c (sound_body.sl.r m c) (by unfold sound_body.sl.r; rfl)))) $$ HatS_pay1
  ihave HatS_pay1 := (Entails.of_eq (out_view_eq (F := F) c _)) $$ HatS_pay1
  sl_close

/-- The two own cells have no round after round 0: at round 1 their owner closes them and has their counters at zero. -/
theorem mid_to_post (c : Dev nD) : bodyMid m K c ⊢ |={Set.univ}=> bodyPost m c := by
  unfold bodyMid bodyPost Φ₁
  iintro ⟨#HIsnd, #HIrcv, Hscr, HatS, HatV, HO, Hx, Hout⟩
  imod (Rounds.cell_close ER (plan m) (Set.mem_univ (K (c, 1))) (fun h => h) (R := 1) (duties_later m (sendCell c))) $$ [HatS] with HzS
  · isplitr; · iexact HIsnd
    iexact HatS
  imod (Rounds.cell_close ER (plan m) (Set.mem_univ (K (c, 2))) (fun h => h) (R := 1) (duties_later m (recvCell c))) $$ [HatV] with HzV
  · isplitr; · iexact HIrcv
    iexact HatV
  imodintro
  isplitl [Hscr HzS HzV]
  · isplitl [Hscr]; · iexact Hscr
    isplitl [HzS]; · iexact HzS
    iexact HzV
  isplitl [HO]; · iexact HO
  isplitl [Hx]; · iexact Hx
  iexact Hout

end Body

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  refine BIBase.Entails.trans ?_ (wp_fupd _ _ _ _ _)
  unfold bodyPre' Φ₀ start
  iintro ⟨⟨⟨⟨%K, Hg⟩, Hrest⟩, Hscr⟩, Ho, Hx, Hout⟩
  iapply (sound_body m K c fun _ => iprop(|={Set.univ}=> bodyPost m c))
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iapply (mid_to_post m K c); iexact H

end Cert.Kernel.Exchange

end
-- ==== Proof.MeshRunWord.lean ====
/-
  The launch of the distributed column maximum on the four devices.

  The exchange's ghost state is funded once for all devices: every device's three cells (barrier, send, receive) at
  round 0, their positions with their owners, and one duty token per cell. The barrier semaphore is the runtime's and
  is not scoped to the launch, so its counter at zero comes with the unscoped semaphores and all cells are allocated
  under one update for every device together. The tokens are then dealt to the devices that pay them: a device's
  barrier and receive tokens go to its partner, its send token stays. What the partner owes a device's barrier and
  receive cells is that device's launch credit. From these each device's body obligation (Body.lean) gives the run:
  every fair interleaving of the four devices terminates, nothing faults, x is unchanged on every device and each
  device's result array holds the maximum of its own and its partner's column maxima.
-/
import proofs.«900375_g7700000000000376_dist_max_ax0_xy_m1536_n768_v7x_xy2x2_f32_1_alg».proof.Proof.BodyWord
import proofs.«900375_g7700000000000376_dist_max_ax0_xy_m1536_n768_v7x_xy2x2_f32_1_alg».proof.Proof.Gen.Kernel.Points
import Idealize.ShloMosaic.Lib.Pipeline.Value

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def planCells : Finset (GSem nD τ sig) := Finset.univ.map ⟨kcell, kcell_injective⟩

/-- One duty token per cell, as minted: the cell, round 0, its one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def planToks : Finset (GSem nD τ sig × ℕ × Unit) := Finset.univ.map ⟨tokOf, tokOf_injective⟩

def u₀ : UU :=
  (initOf (Pipeline.cells cfgs cellOf_inj) (Pipeline.launchToks cfgs cellOf_inj), initOf planCells planToks)

/-- The duty tokens of device c's own three cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (plan m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_plan : BI.own (ER (initOf planCells planToks)) ⊢ (|==> bigSep Finset.univ (G m) : sProp 𝕄) := by
  have hX (Φ : GSem nD τ sig → sProp 𝕄) : bigSep planCells Φ = bigSep Finset.univ fun c : Dev nD => bigSep Finset.univ fun k : Fin 3 => Φ (kcell (c, k)) := by
    unfold planCells; rw [bigSep_map, bigSep_univ_prod]; rfl
  have hT : bigSep planToks (fun x => (dutyTok ER x.1 x.2.1 x.2.2 : sProp 𝕄)) = bigSep Finset.univ fun c : Dev nD => toks c := by
    unfold planToks; rw [bigSep_map, bigSep_univ_prod]
    exact bigSep_congr fun c _ => by unfold toks; rw [bigSep_fin3]; rfl
  iintro HX
  imod (Rounds.fund ER (plan m) planCells planToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once -/

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (plan m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (plan m) (K ck) (kcell ck) : sProp 𝕄)) ⊢ cellInv ER (plan m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the partner involution: a device's barrier and receive tokens go to its partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (plan m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (plan m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the partner owes a device's cells -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- Device d owes device c's barrier cell one unit exactly when d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (arrived m c); rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The arrays after the run, as the proof data name them. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, at any float instance, from any memory with zero counters: every weakly fair
    execution of @main terminates without a fault, and in every final state each window's array on each device is the
    one the proof data name. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_plan m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The x array after the run holds what it held. -/
theorem finalA_x (c : Dev nD) : finalA m c (0 : Fin 2) = m (win0_0.arr.view.loc (c : Thread nD τ)) :=
  (dats (F := F) m 0 c).arrAt_in (0 : Fin 2) rfl _

omit [FloatOps F] in
/-- The output window is the whole result array, its one block at index 0: entry y of the block is entry y of the array. -/
theorem out_emb (y : S1x768.Idx) : (win0_1.blk (0 : Fin 1)).view.emb y = y := funext fun a => Fin.ext (by
  show win0_1.index (0 : Fin 1) a * S1x768.size a + 1 * (y a).val = (y a).val
  have h0 : win0_1.index (0 : Fin 1) a = 0 := rfl
  rw [h0]; omega)

/-- The result array after the run holds the result: the one point writes the whole array back. -/
theorem finalA_out (c : Dev nD) : finalA m c (1 : Fin 2) = result m c :=
  (dats (F := F) m 0 c).arrAt_eq_of_cover (1 : Fin 2) (result m c)
    (fun t _ => by
      rw [fin_N t]
      funext x
      show result m c x = result m c ((win0_1.blk (0 : Fin 1)).view.emb x)
      rw [out_emb])
    (fun i => ⟨t₀, flush0_1 t₀, by
      have h := ((cfg0.win (1 : Fin 2)).blk t₀).view.emb_mem_set i
      rwa [show ((cfg0.win (1 : Fin 2)).blk t₀).view.emb i = i from out_emb i] at h⟩)

end Cert.Kernel.Exchange

end
-- ==== Proof.KernelMax.lean ====
/-
  The kernel's values at an index, at the exact instance.

  Device c's column maximum at column q is the fold of `max`, from the value of the −inf word, over the 1536 entries of
  column q of its block of x; its result at column q is the maximum of its own column maximum and its partner's.
-/
import proofs.«900375_g7700000000000376_dist_max_ax0_xy_m1536_n768_v7x_xy2x2_f32_1_alg».proof.Proof.Exchange
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Exchange

open Cert.KernelIdeal Cert.KernelIdeal.Gen
open Idealize.ShloMosaic Idealize.ShloMosaic.TcCoe Idealize.ShloMosaic.ValueIdx

variable (m : (ℓ : Loc nD τ sig) → Buf (Elt Ideal) ℓ)

/-- The value the −inf word denotes at the exact instance: where the folds start. -/
abbrev negInf : EReal := (FloatOps.ofBits (F := Ideal) .f32 0xFF800000#32 : EReal)

/-- Row k of column q of a [1536, 768] block, as the reduction's lifted index names it. -/
theorem lift_rows (h : S1536x768.Reduces [0] S768) (j : S768.Idx) (k : Fin 1536) :
    h.lift j k = (ix2 k (j 0) : S1536x768.Idx) := by
  funext a; match a with
  | ⟨0, _⟩ => exact Fin.ext rfl
  | ⟨1, _⟩ => exact Fin.ext rfl

/-- The staging buffer holds the whole block: the window is the whole array, its one block at index 0, so the entry at y
    of the block is the array's entry at 0 · size + 1 · y. -/
theorem xblk_apply (c : Dev nD) (y : S1536x768.Idx) : xblk m c y = m ((c : Thread nD τ).loc main_arg0) y := by
  unfold xblk
  show m ((c : Thread nD τ).loc main_arg0) ((win0_0.blk (0 : Fin 1)).view.emb y) = _
  refine congrArg _ (funext fun a => Fin.ext ?_)
  show win0_0.index (0 : Fin 1) a * S1536x768.size a + 1 * (y a).val = (y a).val
  have h0 : win0_0.index (0 : Fin 1) a = 0 := rfl
  rw [h0]; omega

/-- The column maximum at (0, q): the maximum, from −inf, of column q over the block's 1536 rows. -/
theorem colmax_apply (c : Dev nD) (u : Fin 1) (q : Fin 768) :
    (show EReal from colmax m c (ix2 u q))
      = (Finset.univ : Finset (Fin 1536)).fold max negInf (fun k => (show EReal from m ((c : Thread nD τ).loc main_arg0) (ix2 k q))) := by
  unfold colmax k0_pay2
  refine (shapeCast_a_1a_apply _ _ u q).trans ?_
  refine (Ideal.multiReduction_maximumf_single _ _ Gen.reduces_S1536x768_S768 (.inl rfl) rfl (ix1 q)).trans ?_
  refine congrArg₂ (fun b f => (Finset.univ : Finset (Fin 1536)).fold max b f) rfl ?_
  funext k
  exact (congrFun (shapeCast_self (xblk m c) _) _).trans
    ((xblk_apply m c _).trans (congrArg (m ((c : Thread nD τ).loc main_arg0)) (lift_rows Gen.reduces_S1536x768_S768 (ix1 q) k)))

/-- The result at (0, q): the larger of the device's own column maximum and its partner's. -/
theorem result_apply (c : Dev nD) (u : Fin 1) (q : Fin 768) :
    (show EReal from result m c (ix2 u q)) = max (show EReal from colmax m c (ix2 u q)) (show EReal from colmax m (peer c) (ix2 u q)) := by
  unfold result k0_pay1 k0_pay3
  refine (maximumf_apply _ _ _).trans ?_
  rw [shapeCast_self]

end Cert.KernelIdeal.Exchange

end
-- ==== Proof.RefMax.lean ====
/-
  The reference at an index: `jnp.max(x, axis=0, keepdims=True)` over the whole [3072, 1536] array.

  The host program reduces x along axis 0 with `maximum` from −inf and broadcasts the [1536] vector to [1, 1536]. At the
  exact instance its entry at column j is the fold of `max`, from the value of the −inf word, over the 3072 entries of
  column j.
-/
import proofs.«900375_g7700000000000376_dist_max_ax0_xy_m1536_n768_v7x_xy2x2_f32_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The value the −inf word denotes at the exact instance: where both programs' folds start. -/
abbrev start : EReal := (FloatOps.ofBits (F := Ideal) .f32 0xFF800000#32 : EReal)

theorem reduces_rows : S3072x1536.Reduces [0] S1536 := by decide

/-- Row k of column j of the whole array, as the reduction's lifted index names it. -/
theorem lift_rows (j : S1536.Idx) (k : Fin 3072) :
    reduces_rows.lift j k = (ix2 k (j 0) : S3072x1536.Idx) := by
  funext a; match a with
  | ⟨0, _⟩ => exact Fin.ext rfl
  | ⟨1, _⟩ => exact Fin.ext rfl

/-- The reference's result at (0, j): the maximum, from −inf, of column j over all 3072 rows. -/
theorem result_apply (X : (⟨S3072x1536, .f32⟩ : BufTy).Contents (Elt Ideal)) (i : S1x1536.Idx) :
    val_main_v1 (F := Ideal) X i
      = (Finset.univ : Finset (Fin 3072)).fold max start (fun k => (X (ix2 k (i 1)) : EReal)) := by
  rw [val_main_v1_apply]
  unfold val_main_v0
  rw [Host.reduce_eq_fold_single (FloatOps.maximumf (F := Ideal) (φ := .f32)) X _ reducesTo_S3072x1536_S1536_d0 reduces_rows h_S_ _]
  refine congrArg₂ (fun b f => (Finset.univ : Finset (Fin 3072)).fold max b f) rfl ?_
  funext k
  exact congrArg X (lift_rows (idx_main_v1 i) k)

end Cert.ReferenceIdeal.RefValue

end
-- ==== Proof.MaxLaw.lean ====
/-
  The law that joins the two sides of the distributed column maximum.

  The kernel takes, per column, the maximum over the 1536 rows a device holds, then the maximum of that and its partner's;
  the reference takes the maximum over all 3072 rows at once. Both are folds of `max` from the same starting value, and
  in a linear order a fold of `max` is below z exactly when its start and every member are: so the maximum of two folds
  over two families is the fold over any family whose members are exactly theirs. No finiteness is used: the law holds
  at every extended real, the infinities included.
-/
import Mathlib.Data.Finset.Fold
import Mathlib.Data.Fintype.Basic
import Mathlib.Order.Basic

namespace Cert.MaxLaw

variable {α : Type} [LinearOrder α]

/-- A fold of `max` over all of a finite type is below z iff its start and every member are. -/
theorem fold_max_univ_le {ι : Type} [Fintype ι] (b : α) (f : ι → α) (z : α) :
    (Finset.univ : Finset ι).fold max b f ≤ z ↔ b ≤ z ∧ ∀ k, f k ≤ z := by
  rw [Finset.fold_max_le]
  exact ⟨fun h => ⟨h.1, fun k => h.2 k (Finset.mem_univ _)⟩, fun h => ⟨h.1, fun k _ => h.2 k⟩⟩

/-- The maximum of two folds of `max` from one start is the fold over a family that has exactly their members. -/
theorem max_fold_max {ι₁ ι₂ κ : Type} [Fintype ι₁] [Fintype ι₂] [Fintype κ] (b : α) (f₁ : ι₁ → α) (f₂ : ι₂ → α) (g : κ → α)
    (h₁ : ∀ k, ∃ j, g j = f₁ k) (h₂ : ∀ k, ∃ j, g j = f₂ k) (hg : ∀ j, (∃ k, g j = f₁ k) ∨ (∃ k, g j = f₂ k)) :
    max ((Finset.univ : Finset ι₁).fold max b f₁) ((Finset.univ : Finset ι₂).fold max b f₂)
      = (Finset.univ : Finset κ).fold max b g := by
  refine eq_of_forall_ge_iff fun z => ?_
  rw [max_le_iff, fold_max_univ_le, fold_max_univ_le, fold_max_univ_le]
  constructor
  · rintro ⟨⟨hb, H₁⟩, ⟨_, H₂⟩⟩
    refine ⟨hb, fun j => ?_⟩
    rcases hg j with ⟨k, hk⟩ | ⟨k, hk⟩
    · rw [hk]; exact H₁ k
    · rw [hk]; exact H₂ k
  · rintro ⟨hb, H⟩
    refine ⟨⟨hb, fun k => ?_⟩, ⟨hb, fun k => ?_⟩⟩
    · obtain ⟨j, hj⟩ := h₁ k; rw [← hj]; exact H j
    · obtain ⟨j, hj⟩ := h₂ k; rw [← hj]; exact H j

end Cert.MaxLaw
-- ==== Proof.Bridge.lean ====
/-
  The bridge: device c's result is its block of the reference's result.

  The whole array X is [3072, 1536]. Device c = (c / 2, c % 2) holds rows (c / 2) · 1536 + k (k < 1536) of columns
  (c % 2) · 768 + q (q < 768); its partner holds the other row half of the same columns. The reference's result is
  [1, 1536], and device c's block of it is columns (c % 2) · 768 + q. At column q the kernel's result is the maximum of
  the two devices' column maxima, each a fold of `max` over 1536 rows; the reference's is the fold over all 3072 rows
  of that column: the rows of the two halves are exactly all rows (MaxLaw.max_fold_max).
-/
import proofs.«900375_g7700000000000376_dist_max_ax0_xy_m1536_n768_v7x_xy2x2_f32_1_alg».proof.Proof.KernelMax
import proofs.«900375_g7700000000000376_dist_max_ax0_xy_m1536_n768_v7x_xy2x2_f32_1_alg».proof.Proof.RefMax
import proofs.«900375_g7700000000000376_dist_max_ax0_xy_m1536_n768_v7x_xy2x2_f32_1_alg».proof.Proof.MaxLaw
import Idealize.ShloMosaic.Lib.Layout

noncomputable section

namespace Cert.Bridge

open Idealize.ShloMosaic Idealize.ShloMosaic.TcCoe Idealize.ShloMosaic.ValueIdx
open Cert.KernelIdeal Cert.KernelIdeal.Exchange

/-! ## The mesh coordinates of the four devices, and of a device's partner -/

theorem lin0 : ∀ c : Fin 4, Layout.meshLin [2, 2] c.val [0] = c.val / 2 := by decide
theorem lin1 : ∀ c : Fin 4, Layout.meshLin [2, 2] c.val [1] = c.val % 2 := by decide
theorem dev_lt (c : Dev nD) : c.val < 4 := c.isLt
theorem peer_row : ∀ c : Dev nD, (peer c).val / 2 = 1 - c.val / 2 := by decide
theorem peer_col : ∀ c : Dev nD, (peer c).val % 2 = c.val % 2 := by decide

/-- Row k of device c's block, as a row of the whole array. -/
def rowF (c : Dev nD) (k : Fin 1536) : Fin 3072 := ⟨c.val / 2 * 1536 + k.val, by have := dev_lt c; have := k.isLt; omega⟩
/-- Column q of device c's block, as a column of the whole array. -/
def colF (c : Dev nD) (q : Fin 768) : Fin 1536 := ⟨c.val % 2 * 768 + q.val, by have := dev_lt c; have := q.isLt; omega⟩

/-- A device and its partner hold the same columns. -/
theorem colF_peer (c : Dev nD) (q : Fin 768) : colF (peer c) q = colF c q := Fin.ext (by unfold colF; dsimp only; rw [peer_col])

variable (m : (ℓ : Loc nD τ sig) → Buf (Elt Ideal) ℓ)
  (X : (⟨Cert.ReferenceIdeal.S3072x1536, .f32⟩ : BufTy).Contents (Elt Ideal))

/-- The hypothesis of the claim: every device's argument buffer is its block of the whole array. -/
def Agree : Prop :=
  ∀ c : Dev nD, m ((c.tc : Thread nD τ).loc main_arg0)
    = Layout.blockN ⟨2, ![1536, 768]⟩ ⟨2, ![3072, 1536]⟩ (Layout.meshBlock [2, 2] ![[0], [1]] c) X

/-- Entry (k, q) of device c's block is entry (rowF c k, colF c q) of the whole array. -/
theorem arg_apply (h : Agree m X) (c : Dev nD) (k : Fin 1536) (q : Fin 768) :
    (show EReal from m ((c.tc : Thread nD τ).loc main_arg0) (ix2 k q)) = (show EReal from X (ix2 (rowF c k) (colF c q))) := by
  rw [h c]
  show X _ = X _
  refine congrArg X (funext fun a => ?_)
  match a with
  | ⟨0, _⟩ => exact Fin.ext (by
      show Layout.meshLin [2, 2] c.val [0] * 1536 + k.val = c.val / 2 * 1536 + k.val
      rw [lin0])
  | ⟨1, _⟩ => exact Fin.ext (by
      show Layout.meshLin [2, 2] c.val [1] * 768 + q.val = c.val % 2 * 768 + q.val
      rw [lin1])

/-- Device c's block of the reference's result at (0, q): the maximum of column colF c q of the whole array over all rows. -/
theorem ref_block_apply (c : Dev nD) (u : Fin 1) (q : Fin 768) :
    (show EReal from (Layout.blockN ⟨2, ![1, 768]⟩ ⟨2, ![1, 1536]⟩ (Layout.meshBlock [2, 2] ![[], [1]] c)
        (Cert.ReferenceIdeal.Read.val_main_v1 (F := Ideal) X)) (ix2 u q))
      = (Finset.univ : Finset (Fin 3072)).fold max negInf (fun k => (show EReal from X (ix2 k (colF c q)))) := by
  rw [Layout.blockN_apply]
  refine (Cert.ReferenceIdeal.RefValue.result_apply X _).trans ?_
  refine congrArg₂ (fun b f => (Finset.univ : Finset (Fin 3072)).fold max b f) rfl (funext fun k => ?_)
  refine congrArg X (funext fun a => ?_)
  match a with
  | ⟨0, _⟩ => rfl
  | ⟨1, _⟩ => exact Fin.ext (by
      show Layout.meshLin [2, 2] c.val [1] * 768 + q.val = c.val % 2 * 768 + q.val
      rw [lin1])

/-- Device c's result is block (c % 2) of the reference's result, cut along the columns. -/
theorem result_eq_block (h : Agree m X) (c : Dev nD) :
    (result m c : (⟨S1x768, .f32⟩ : BufTy).Contents (Elt Ideal))
      = Layout.blockN ⟨2, ![1, 768]⟩ ⟨2, ![1, 1536]⟩ (Layout.meshBlock [2, 2] ![[], [1]] c)
          (Cert.ReferenceIdeal.Read.val_main_v1 (F := Ideal) X) := by
  funext i
  obtain ⟨u, q, rfl⟩ : ∃ (u : Fin 1) (q : Fin 768), i = ix2 u q := ⟨i 0, i 1, eq_ix2 i⟩
  refine (result_apply m c u q).trans ?_
  refine (congrArg₂ max (colmax_apply m c u q) (colmax_apply m (peer c) u q)).trans ?_
  refine Eq.trans ?_ (ref_block_apply X c u q).symm
  have hc := dev_lt c
  have hp := dev_lt (peer c)
  have hpr := peer_row c
  refine Cert.MaxLaw.max_fold_max _ _ _ _ (fun k => ⟨rowF c k, ?_⟩) (fun k => ⟨rowF (peer c) k, ?_⟩) (fun j => ?_)
  · -- a row of c's own half is a row of the whole column
    exact (arg_apply m X h c k q).symm
  · -- a row of the partner's half is a row of the whole column too: the partner holds the same columns
    refine Eq.trans ?_ (arg_apply m X h (peer c) k q).symm
    rw [colF_peer]
  · -- every row of the whole column is in one of the two halves
    have hj := j.isLt
    by_cases hh : j.val / 1536 = c.val / 2
    · refine Or.inl ⟨⟨j.val % 1536, Nat.mod_lt _ (by decide)⟩, ?_⟩
      refine Eq.trans ?_ (arg_apply m X h c _ q).symm
      exact congrArg (fun r => X (ix2 r (colF c q))) (Fin.ext (by unfold rowF; dsimp only; omega))
    · refine Or.inr ⟨⟨j.val % 1536, Nat.mod_lt _ (by decide)⟩, ?_⟩
      refine Eq.trans ?_ (arg_apply m X h (peer c) _ q).symm
      rw [colF_peer]
      exact congrArg (fun r => X (ix2 r (colF c q))) (Fin.ext (by unfold rowF; dsimp only; omega))

end Cert.Bridge

end
-- ==== Proof.lean ====
/-
  The distributed column maximum on the 2×2 mesh against `jnp.max(x, axis=0, keepdims=True)` of the whole array.

  Each of the four devices holds a [1536, 768] block of x. A device takes the column maximum of its block, exchanges it
  with the device that holds the other row half of the same columns, and keeps the larger of the two per column; so it
  ends with the maximum over all 3072 rows of its 768 columns, which is its block of the reference's [1, 1536] result.

  The frames. The reference's is its run with the value dropped. The kernel's two (the word-level program and the
  idealized one) are the same proof at two float instances: the exchange protocol (Exchange.lean: a barrier handshake
  and one remote copy per device, three cells each), one device's body stepped from the protocol's ghost state
  (Body.lean), and the launch on the four devices (MeshRun.lean), whose run names every array after it; the frame reads
  off that x is unchanged.
  The idealization rewrote nothing, so `preserves` has no conjunct.
  The value. At the exact instance the kernel's result at a column is the larger of two folds of `max` from −inf, over
  the rows of the device's block and of its partner's (KernelMax.lean); the reference's is one such fold over all rows of
  the whole array (RefMax.lean); the two halves' rows are exactly all rows, and a fold of `max` is determined by what
  bounds it (MaxLaw.lean, Bridge.lean). The law holds at every extended real, so the finiteness of the inputs is not
  used.
-/
import proofs.«900375_g7700000000000376_dist_max_ax0_xy_m1536_n768_v7x_xy2x2_f32_1_alg».proof.Defs
import proofs.«900375_g7700000000000376_dist_max_ax0_xy_m1536_n768_v7x_xy2x2_f32_1_alg».proof.Proof.Gen.Kernel
import proofs.«900375_g7700000000000376_dist_max_ax0_xy_m1536_n768_v7x_xy2x2_f32_1_alg».proof.Proof.Gen.KernelIdeal
import proofs.«900375_g7700000000000376_dist_max_ax0_xy_m1536_n768_v7x_xy2x2_f32_1_alg».proof.Proof.Gen.ReferenceIdeal
import proofs.«900375_g7700000000000376_dist_max_ax0_xy_m1536_n768_v7x_xy2x2_f32_1_alg».proof.Proof.Gen.Pre_finite_inputs_Kernel
import proofs.«900375_g7700000000000376_dist_max_ax0_xy_m1536_n768_v7x_xy2x2_f32_1_alg».proof.Proof.Gen.Pre_finite_inputs_ReferenceIdeal
import proofs.«900375_g7700000000000376_dist_max_ax0_xy_m1536_n768_v7x_xy2x2_f32_1_alg».proof.Proof.Gen.ReferenceIdeal.Run
import proofs.«900375_g7700000000000376_dist_max_ax0_xy_m1536_n768_v7x_xy2x2_f32_1_alg».proof.Proof.Gen.ReferenceIdeal.Read
import proofs.«900375_g7700000000000376_dist_max_ax0_xy_m1536_n768_v7x_xy2x2_f32_1_alg».proof.Proof.MeshRun
import proofs.«900375_g7700000000000376_dist_max_ax0_xy_m1536_n768_v7x_xy2x2_f32_1_alg».proof.Proof.MeshRunWord
import proofs.«900375_g7700000000000376_dist_max_ax0_xy_m1536_n768_v7x_xy2x2_f32_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves x unchanged: its run, read at the input window's array. -/
theorem frame_word : Cert.frame_Kernel := fun m ρ _ =>
  (θ_run (Cert.Kernel.defs (F := Bits)) _ _).mono
    (fun r h c => (h c (0 : Fin 2)).trans (Cert.Kernel.Exchange.finalA_x m c))
    (Cert.Kernel.Exchange.run_main (F := Bits) m ρ)

/-- The idealized kernel runs and leaves x unchanged. -/
theorem frame_ideal : Cert.frame_KernelIdeal := fun m ρ _ =>
  (θ_run (Cert.KernelIdeal.defs (F := Ideal)) _ _).mono
    (fun r h c => (h c (0 : Fin 2)).trans (Cert.KernelIdeal.Exchange.finalA_x m c))
    (Cert.KernelIdeal.Exchange.run_main (F := Ideal) m ρ)

/-- The reference runs and leaves x unchanged: its run with the value dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs run; the reference ends with the column maxima of the whole array, and each device with its block of
    them: the result array holds the larger of the device's and its partner's column maxima (the run), which is that block
    (the bridge). -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, ?_⟩)
      (Cert.KernelIdeal.Exchange.run_main (F := Ideal) m ρ)
    · exact ((h c (1 : Fin 2)).trans (Cert.KernelIdeal.Exchange.finalA_out m c)).trans
        (Cert.Bridge.result_eq_block m _ hagree c)
    · exact (h c (0 : Fin 2)).trans (Cert.KernelIdeal.Exchange.finalA_x m c)
  · exact (θ_run Cert.ReferenceIdeal.defs _ _).mono
      (fun r h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_word, frame_ideal, frame_ref, preserves, algebraic⟩

end Cert.Proof

end
